-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000000 : Shape := ⟨2, ![8, 2000000]⟩
abbrev S8x16385 : Shape := ⟨2, ![8, 16385]⟩
abbrev S_ : Shape := ⟨0, ![]⟩

class Facts : Prop where
  bcast_S_S8x2000000 : S_.BroadcastsInDim S8x2000000 (![] : Fin 0 → Fin S8x2000000.rank)
  reducesTo_S8x2000000_S_d0_1 : S8x2000000.ReducesTo [0, 1] S_
  h_S_ : 0 < S_.numel

variable [Facts]

def fn {F : FTy → Type} [FloatOps F] (main_arg0 : IVec S8x2000000 32) (main_arg1 : IVec S8x16385 32) (main_arg2 : FVec F S8x2000000 .f32) : IVec S_ 1 :=
  let main_v0 : FVec F S8x2000000 .f32 := Host.absf main_arg2
  let main_cst : FVec F S_ .f32 := constant S_ .f32 0x7F800000#32
  let main_v1 : FVec F S8x2000000 .f32 := broadcastInDim S8x2000000 ![] bcast_S_S8x2000000 main_cst
  let main_v2 : IVec S8x2000000 1 := cmpf .olt main_v0 main_v1
  let main_c : IVec S_ 1 := constantI S_ 1 1#1
  let main_v3 : IVec S_ 1 := (fun x v => Host.reduce IntOp.andi x v reducesTo_S8x2000000_S_d0_1 h_S_) main_v2 main_c
  main_v3
-- ==== Kernel.lean ====
abbrev S8x2000000 : Shape := ⟨2, ![8, 2000000]⟩
abbrev S8x16385 : Shape := ⟨2, ![8, 16385]⟩
abbrev S1 : Shape := ⟨1, ![1]⟩
abbrev S16000000 : Shape := ⟨1, ![16000000]⟩
abbrev S8x16384 : Shape := ⟨2, ![8, 16384]⟩
abbrev S131072 : Shape := ⟨1, ![131072]⟩
abbrev S131073 : Shape := ⟨1, ![131073]⟩

abbrev nBuf : Space → Nat
  | .hbm => 9
  | .vmem => 2
  | .smem => 0
  | _ => 0

abbrev bufTy : (tb : Table) → Fin (tcTables nBuf tb) → BufTy
  | .hbm, ⟨0, _⟩ => ⟨S8x2000000, .i32⟩
  | .hbm, ⟨1, _⟩ => ⟨S8x16385, .i32⟩
  | .hbm, ⟨2, _⟩ => ⟨S8x2000000, .f32⟩
  | .hbm, ⟨3, _⟩ => ⟨S1, .i32⟩
  | .hbm, ⟨4, _⟩ => ⟨S16000000, .i32⟩
  | .hbm, ⟨5, _⟩ => ⟨S16000000, .f32⟩
  | .hbm, ⟨6, _⟩ => ⟨S8x16384, .i32⟩
  | .hbm, ⟨7, _⟩ => ⟨S131072, .i32⟩
  | .hbm, ⟨8, _⟩ => ⟨S131073, .i32⟩
  | .local _ .vmem, ⟨0, _⟩ => ⟨S8x16385, .i32⟩
  | .local _ .vmem, ⟨1, _⟩ => ⟨S8x16384, .i32⟩
  | _, _ => ⟨S8x2000000, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x16385 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S8x2000000_S16000000 : S8x2000000.ShapeCasts S16000000
  inb_S8x16385_S8x16384_0_0 : ∀ a, (![0, 0] : Fin 2 → Nat) a + S8x16384.size a ≤ S8x16385.size a
  h_S8x16384 : 0 < S8x16384.numel
  iota_S8x16384_d0_w32 : S8x16384.Iotas .tc 32 [0]
  inb_S8x16384_S8x16384_0_0 : ∀ a, (![0, 0] : Fin 2 → Nat) a + S8x16384.size a ≤ S8x16384.size a
  shapeCasts_S8x16384_S131072 : S8x16384.ShapeCasts S131072
  concatenates_S131072_S1_S131073_d0 : Shape.Concatenates [S131072, S1] S131073 0
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x16385.size a ≤ S8x16385.size a
  hwx0_0 : ∀ i : grid0.Coords, EltTy.bits .i32 = 32 ∨ (Rect.block (s := S8x16385) S8x16385.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x16384.size a ≤ S8x16384.size a
  hwx0_1 : ∀ i : grid0.Coords, EltTy.bits .i32 = 32 ∨ (Rect.block (s := S8x16384) S8x16384.size (cc0_transform_1 i) (hinb0_1 i)).WholeWords (EltTy.packing .i32)

variable [Facts₀]

abbrev win0_0 : Pipeline.Window sig grid0 :=
  Pipeline.Window.ofSpec (Memref.whole main_arg1) S8x16385.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x16384.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2000000 : Shape := ⟨2, ![8, 2000000]⟩
abbrev S8x16385 : Shape := ⟨2, ![8, 16385]⟩
abbrev S1 : Shape := ⟨1, ![1]⟩
abbrev S16000000 : Shape := ⟨1, ![16000000]⟩
abbrev S8 : Shape := ⟨1, ![8]⟩
abbrev S_ : Shape := ⟨0, ![]⟩
abbrev S8x1 : Shape := ⟨2, ![8, 1]⟩
abbrev S8x16384 : Shape := ⟨2, ![8, 16384]⟩
abbrev S131072 : Shape := ⟨1, ![131072]⟩
abbrev S131073 : Shape := ⟨1, ![131073]⟩

abbrev nBuf : Space → Nat
  | .hbm => 16
  | .vmem => 0
  | .smem => 0
  | _ => 0

abbrev bufTy : (tb : Table) → Fin (tcTables nBuf tb) → BufTy
  | .hbm, ⟨0, _⟩ => ⟨S8x2000000, .i32⟩
  | .hbm, ⟨1, _⟩ => ⟨S8x16385, .i32⟩
  | .hbm, ⟨2, _⟩ => ⟨S8x2000000, .f32⟩
  | .hbm, ⟨3, _⟩ => ⟨S1, .i32⟩
  | .hbm, ⟨4, _⟩ => ⟨S16000000, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8x1, .i32⟩
  | .hbm, ⟨10, _⟩ => ⟨S8x16384, .i32⟩
  | .hbm, ⟨11, _⟩ => ⟨S8x16384, .i32⟩
  | .hbm, ⟨12, _⟩ => ⟨S8x16384, .i32⟩
  | .hbm, ⟨13, _⟩ => ⟨S131072, .i32⟩
  | .hbm, ⟨14, _⟩ => ⟨S131073, .i32⟩
  | .hbm, ⟨15, _⟩ => ⟨S16000000, .f32⟩
  | _, _ => ⟨S8x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S8x2000000_S16000000 : S8x2000000.ShapeCasts S16000000
  bcast_S_S8 : S_.BroadcastsInDim S8 (![] : Fin 0 → Fin S8.rank)
  bcast_S8_S8x1_0 : S8.BroadcastsInDim S8x1 (![0] : Fin 1 → Fin S8x1.rank)
  slices_S8x16385_S8x16384_0_0 : S8x16385.Slices ![0, 0] S8x16384
  bcast_S8x1_S8x16384_0_1 : S8x1.BroadcastsInDim S8x16384 (![0, 1] : Fin 2 → Fin S8x16384.rank)
  shapeCasts_S8x16384_S131072 : S8x16384.ShapeCasts S131072
  concatenates_S131072_S1_S131073_d0 : Shape.Concatenates [S131072, S1] S131073 0

variable [Facts₀]

class Facts : Prop extends Facts₀ where

variable [Facts]
-- ==== Proof.OffsetRows.lean ====
/-
  The combined offsets of eight jagged tables, as one function of the offsets array.

  Each table t (a row of the 8 x 16385 array) lists 16384 segment starts followed by its own length; the tables'
  index lists, each of length 2000000, are laid end to end, so a start s of table t becomes s + t * 2000000 in the
  combined list. Only the first 16384 columns of each row are shifted (the last column of a row is dropped); the
  arithmetic is on 32-bit words, wrapping where it wraps.
-/
import Idealize.ShloMosaic.PureOps
import Idealize.ShloMosaic.Lib.ValueIdx

noncomputable section

namespace Cert.OffsetRows

open Idealize.ShloMosaic Idealize.ShloMosaic.ValueIdx

/-- The offsets array: eight rows, each 16384 starts and one closing length. -/
abbrev Rows : Shape := ⟨2, ![8, 16385]⟩
/-- The starts alone: eight rows of 16384. -/
abbrev Starts : Shape := ⟨2, ![8, 16384]⟩

/-- A position among the starts, as a position of the offsets array (same row, same column; the column is one of the
    first 16384). -/
def keep (j : Starts.Idx) : Rows.Idx :=
  ix2 (j 0) ⟨(j 1).val, Nat.lt_succ_of_lt (idx2_lt1 j)⟩

/-- Row t's starts, each moved by t * 2000000: the start at (t, k) becomes x(t, k) + t * 2000000 as 32-bit words. -/
def shifted (x : Rows.Idx → BitVec 32) : Starts.Idx → BitVec 32 :=
  fun j => IntOp.addi (x (keep j)) (IntOp.muli (BitVec.ofNat 32 (j 0).val) 2000000#32)

/-- The starts laid out in one row, table after table. -/
abbrev Flat : Shape := ⟨1, ![131072]⟩
/-- One word. -/
abbrev One : Shape := ⟨1, ![1]⟩
/-- The combined offsets: 8 * 16384 starts and one closing total. -/
abbrev Combined : Shape := ⟨1, ![131073]⟩

/-- The combined offsets from the (shifted) starts X and the closing word C: X row after row, then C. -/
def combined (h1 : Starts.ShapeCasts Flat) (h2 : Shape.Concatenates [Flat, One] Combined 0)
    (X : Starts.Idx → BitVec 32) (C : One.Idx → BitVec 32) : Combined.Idx → BitVec 32 :=
  concatenate Combined 0 [⟨Flat, shapeCast Flat X h1⟩, ⟨One, C⟩] h2

end Cert.OffsetRows

end
-- ==== Proof.KernelStarts.lean ====
/-
  What the kernel leaves in its results, as functions of the argument arrays.

  The one grid point stages the whole offsets array and writes back a whole 8 x 16384 block: the first 16384 columns of
  every row, row t moved by t * 2000000 (the row number is the block's own row coordinate, since the block starts at
  row 0). After the region the block is flattened row by row and the total length 16000000 is appended; the other two
  results are the flattened index and weight arrays, written before the region and not touched by it.
-/
import proofs.«141560_j6038724018288_2_alg».proof.Proof.Gen.KernelIdeal.Frame
import proofs.«141560_j6038724018288_2_alg».proof.Proof.OffsetRows
import Idealize.ShloMosaic.Lib.Pipeline.Value
import Idealize.ShloMosaic.Lib.ValueIdx
import Idealize.ShloMosaic.Lib.StableHlo.Run

set_option maxRecDepth 16384

noncomputable section

namespace Cert.KernelIdeal.Starts

open Cert.KernelIdeal Cert.KernelIdeal.Gen Idealize.ShloMosaic Idealize.ShloMosaic.TcCoe Idealize.SL.Sem
open Idealize.ShloMosaic.ValueIdx Cert.OffsetRows
open Idealize.ShloMosaic.Pipeline (Dat Cfg Window)

variable {F : FTy → Type} [FloatOps F]

/-! ## The body -/

theorem zeros : (![0, 0] : Fin 2 → Nat) = fun _ => 0 := funext fun a => by fin_cases a <;> rfl

/-- The stored value at (t, k): the loaded word plus t * 2000000 (the row counter reads its row coordinate). -/
theorem stored_apply (v0 : Vec F S8x16384 .i32) (j : S8x16384.Idx) :
    k0_pay1 v0 j = IntOp.addi (v0 j) (IntOp.muli (BitVec.ofNat 32 (j 0).val) 2000000#32) := by
  unfold k0_pay1
  show IntOp.addi (v0 j) (IntOp.muli (iota .tc S8x16384 32 [0] iota_S8x16384_d0_w32 j) 2000000#32) = _
  rw [iota_single_apply]

/-- The output block after the body is the shifted starts of the input block: the load reads the input block's first
    16384 columns, and the one store covers the output block. -/
theorem block_eq (x0 : Vec F S8x16385 .i32) : out0_1 x0 = shifted x0 := by
  unfold out0_1
  rw [View.canon_unit_zero zeros]
  funext j
  rw [stored_apply]
  show IntOp.addi (x0 (r0_0.idx j)) _ = IntOp.addi (x0 (keep j)) _
  have e : r0_0.idx j = keep j := by
    funext a; apply Fin.ext
    match a with
    | ⟨0, _⟩ => show 0 + 1 * (j 0).val = (j 0).val; omega
    | ⟨1, _⟩ => show 0 + 1 * (j 1).val = (j 1).val; omega
  rw [e]

/-! ## From the block to the array -/

variable (m : (ℓ : Loc nD τ sig) → Buf (Elt F) ℓ) (ρ : Dev nD → PrngReg)

/-- Both windows sit at block (0, 0) at the grid's one point. -/
theorem origin : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the point writes back is the block of the shifted starts of the offsets array as the region finds it. -/
theorem flushed_eq (c : Dev nD) (t : Fin cfg0.N) :
    (dats m 0 c).flushed 1 t = ((cfg0.win 1).blk t).view.read (Elt F) (shifted (V m c main_arg1)) := by
  show (cfg0.win 1).cut (grid0.coords t) ((dats m 0 c).after 1 t) = _
  rw [after0_1, block_eq]
  obtain ⟨e0, e1, e2, e3⟩ := origin t
  funext j
  show IntOp.addi (V m c main_arg1 (((cfg0.win 0).blk t).view.emb (keep j))) (IntOp.muli (BitVec.ofNat 32 (j 0).val) 2000000#32)
    = IntOp.addi (V m c main_arg1 (keep (((cfg0.win 1).blk t).view.emb j)))
        (IntOp.muli (BitVec.ofNat 32 ((((cfg0.win 1).blk t).view.emb j) 0).val) 2000000#32)
  have h1 : ((cfg0.win 1).blk t).view.emb j = j := by
    funext a; apply Fin.ext
    match a with
    | ⟨0, _⟩ => show win0_1.index t (0 : Fin 2) * 8 + 1 * (j 0).val = (j 0).val; omega
    | ⟨1, _⟩ => show win0_1.index t (1 : Fin 2) * 16384 + 1 * (j 1).val = (j 1).val; omega
  have h0 : ((cfg0.win 0).blk t).view.emb (keep j) = keep j := by
    funext a; apply Fin.ext
    match a with
    | ⟨0, _⟩ => show win0_0.index t (0 : Fin 2) * 8 + 1 * (keep j 0).val = (keep j 0).val; omega
    | ⟨1, _⟩ => show win0_0.index t (1 : Fin 2) * 16385 + 1 * (keep j 1).val = (keep j 1).val; omega
  rw [h1, h0]

/-- An index of the output array is in the point's block iff each coordinate is in the block's range. -/
theorem mem_blk (t : Fin cfg0.N) (i : S8x16384.Idx) :
    i ∈ ((cfg0.win 1).blk t).view.set ↔ ∀ a : Fin 2, win0_1.index t a * S8x16384.size a ≤ (i a).val ∧ (i a).val < win0_1.index t a * S8x16384.size a + S8x16384.size a := by
  show i ∈ ((View.whole main_v2).slice (win0_1.rect t)).set ↔ _
  rw [View.set_slice_whole, Rect.mem_set_unit]
  exact Iff.rfl

/-- The one block is the whole output array. -/
theorem covered (i : S8x16384.Idx) :
    ∃ t : Fin cfg0.N, (cfg0.win 1).flush t = true ∧ i ∈ ((cfg0.win 1).blk t).view.set := by
  refine ⟨t0_0, flush0_1 t0_0, ?_⟩
  obtain ⟨e0, e1, e2, e3⟩ := origin t0_0
  have hi0 : (i 0).val < 8 := (i 0).isLt
  have hi1 : (i 1).val < 16384 := (i 1).isLt
  rw [mem_blk]
  intro a
  match a with
  | ⟨0, _⟩ => show win0_1.index t0_0 (0 : Fin 2) * 8 ≤ (i 0).val ∧ (i 0).val < win0_1.index t0_0 (0 : Fin 2) * 8 + 8; omega
  | ⟨1, _⟩ => show win0_1.index t0_0 (1 : Fin 2) * 16384 ≤ (i 1).val ∧ (i 1).val < win0_1.index t0_0 (1 : Fin 2) * 16384 + 16384; omega

/-- The output array after the region: the shifted starts of the offsets argument. -/
theorem starts_final (c : Dev nD) :
    (dats m 0 c).arrAt 1 cfg0.N = shifted (m ((c : Thread nD τ).loc main_arg1)) := by
  rw [(dats m 0 c).arrAt_eq_of_cover 1 (shifted (V m c main_arg1)) (fun t _ => flushed_eq m c t) covered, V_main_arg1]

/-! ## The results after the lines that follow the region -/

/-- The flattened indices were written before the region and nothing after touches them. -/
theorem indices_final (c : Dev nD) :
    Pipeline.afterTail₀ cfgs (dats m) 0 (V0 m) [hostOps1] c main_v0
      = shapeCast _ (m ((c : Thread nD τ).loc main_arg0)) shapeCasts_S8x2000000_S16000000 := by
  unfold Pipeline.afterTail₀
  show StableHlo.after hostOps1 _ (Proc.devRef .tc main_v0) = _
  after_results
  rw [Pipeline.withArrays_of_ne _ c (V0 m c) _ main_v0 (by exact (by decide : ∀ w, Pipeline.arrRef spec0 w ≠ main_v0))]
  show StableHlo.after hostOps0 (fun b => m (c, b)) (Proc.devRef .tc main_v0) = _
  after_results
  rfl

/-- The same for the flattened weights. -/
theorem weights_final (c : Dev nD) :
    Pipeline.afterTail₀ cfgs (dats m) 0 (V0 m) [hostOps1] c main_v1
      = shapeCast _ (m ((c : Thread nD τ).loc main_arg2)) shapeCasts_S8x2000000_S16000000 := by
  unfold Pipeline.afterTail₀
  show StableHlo.after hostOps1 _ (Proc.devRef .tc main_v1) = _
  after_results
  rw [Pipeline.withArrays_of_ne _ c (V0 m c) _ main_v1 (by exact (by decide : ∀ w, Pipeline.arrRef spec0 w ≠ main_v1))]
  show StableHlo.after hostOps0 (fun b => m (c, b)) (Proc.devRef .tc main_v1) = _
  after_results
  rfl

/-- The closing word was written before the region: the total 16000000. -/
theorem total_entry (c : Dev nD) : V0 m c (Proc.devRef .tc main_c) = constantI S1 32 16000000#32 := by
  show StableHlo.after hostOps0 (fun b => m (c, b)) (Proc.devRef .tc main_c) = _
  after_results

/-- The combined offsets: the output array flattened, then the total. -/
theorem offsets_final (c : Dev nD) :
    Pipeline.afterTail₀ cfgs (dats m) 0 (V0 m) [hostOps1] c main_v4
      = combined shapeCasts_S8x16384_S131072 concatenates_S131072_S1_S131073_d0
          (shifted (m ((c : Thread nD τ).loc main_arg1))) (constantI S1 32 16000000#32) := by
  unfold Pipeline.afterTail₀
  show StableHlo.after hostOps1 _ (Proc.devRef .tc main_v4) = _
  after_results
  show combined shapeCasts_S8x16384_S131072 concatenates_S131072_S1_S131073_d0
      (Pipeline.withArrays spec0 c (V0 m c) (fun w => (dats m 0 c).arrAt w cfg0.N) (Proc.devRef .tc main_v2))
      (Pipeline.withArrays spec0 c (V0 m c) (fun w => (dats m 0 c).arrAt w cfg0.N) (Proc.devRef .tc main_c)) = _
  rw [Pipeline.withArrays_of_ne _ c (V0 m c) _ main_c (by exact (by decide : ∀ w, Pipeline.arrRef spec0 w ≠ main_c)),
    total_entry]
  exact congrArg (fun X => combined shapeCasts_S8x16384_S131072 concatenates_S131072_S1_S131073_d0 X (constantI S1 32 16000000#32))
    ((Pipeline.withArrays_arr spec0 launch0.win.arr_inj c _ _ 1).trans (starts_final m c))

/-! ## The run -/

/-- Every weakly fair execution ends with the three results at their functions of the arguments, and the arguments as
    they were. -/
theorem run : θ_run defs (onTc (τ := τ) (main (F := F))) ⟨m, fun _ => 0, ρ⟩ fun r => ∀ c : Dev nD,
      r.2.mem ((c.tc : Thread nD τ).loc main_v0) = shapeCast _ (m ((c : Thread nD τ).loc main_arg0)) shapeCasts_S8x2000000_S16000000
      ∧ r.2.mem ((c.tc : Thread nD τ).loc main_v4)
          = combined shapeCasts_S8x16384_S131072 concatenates_S131072_S1_S131073_d0
              (shifted (m ((c : Thread nD τ).loc main_arg1))) (constantI S1 32 16000000#32)
      ∧ r.2.mem ((c.tc : Thread nD τ).loc main_v1) = shapeCast _ (m ((c : Thread nD τ).loc main_arg2)) shapeCasts_S8x2000000_S16000000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (indices_final m c),
      ((h c).2 main_v4 (Pipeline.mem_restRefs_of main_v4 (by decide) (by decide))).trans (offsets_final m c),
      ((h c).2 main_v1 (Pipeline.mem_restRefs_of main_v1 (by decide) (by decide))).trans (weights_final m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Starts

end
-- ==== Proof.ReferenceStarts.lean ====
/-
  The reference's shifted offsets, read entry by entry.

  The reference multiplies the row numbers 0..7 by 2000000, lays them out as a column, copies the column across the
  16384 columns and adds it to the first 16384 columns of the offsets array: at (t, k) that is x(t, k) + t * 2000000 on
  32-bit words, the same function of the offsets array the kernel's block holds.
-/
import proofs.«141560_j6038724018288_2_alg».proof.Proof.Gen.ReferenceIdeal.Read
import proofs.«141560_j6038724018288_2_alg».proof.Proof.OffsetRows

noncomputable section

namespace Cert.ReferenceIdeal.Starts

open Cert.ReferenceIdeal Cert.ReferenceIdeal.Gen Cert.ReferenceIdeal.Read Idealize.ShloMosaic Idealize.ShloMosaic.TcCoe
open Idealize.ShloMosaic.ValueIdx Cert.OffsetRows

variable {F : FTy → Type} [FloatOps F]

/-- The sum before it is flattened is the shifted starts of the offsets array. -/
theorem sum_eq (x1 : (⟨S8x16385, .i32⟩ : BufTy).Contents (Elt F)) : val_main_v7 (F := F) x1 = shifted x1 := by
  funext j
  rw [val_main_v7_apply, val_main_v5_apply, val_main_v6_apply, val_main_v4_apply, val_main_v3_apply, val_main_v1_apply,
    val_main_v2_apply, val_main_c_0_apply]
  have e : idx_main_v5 j = keep j := by
    funext a; apply Fin.ext
    match a with
    | ⟨0, _⟩ => rfl
    | ⟨1, _⟩ => rfl
  rw [e]
  rfl

/-- The reference's combined offsets: the shifted starts flattened, then the total 16000000. -/
theorem offsets_eq (x1 : (⟨S8x16385, .i32⟩ : BufTy).Contents (Elt F)) :
    val_main_v9 (F := F) x1
      = combined shapeCasts_S8x16384_S131072 concatenates_S131072_S1_S131073_d0 (shifted x1) (constantI S1 32 16000000#32) := by
  rw [← sum_eq]
  rfl

end Cert.ReferenceIdeal.Starts

end
-- ==== Proof.lean ====
/-
  Eight jagged tables' offsets combined into one list, a kernel against its plain reference.

  Both programs return three arrays. The index array and the weight array, each 8 x 2000000, are returned flattened
  row by row: the same reshape of the same argument on both sides. The combined offsets are, on both sides, the first
  16384 columns of the 8 x 16385 offsets array with row t moved by t * 2000000 (32-bit words), flattened row by row,
  followed by the one word 16000000. The kernel computes the moved rows in one block, its row counter being the block's
  row coordinate; the reference multiplies the row numbers 0..7 by 2000000 and copies that column across the row. Entry
  (t, k) is x(t, k) + t * 2000000 either way, so the two results are one function of the offsets argument, and the
  flattening and the appended word are the same operations applied to it. Nothing here depends on the float inputs
  being finite: the weights are only re-laid.
-/
import proofs.«141560_j6038724018288_2_alg».proof.Defs
import proofs.«141560_j6038724018288_2_alg».proof.Proof.Gen.Kernel
import proofs.«141560_j6038724018288_2_alg».proof.Proof.Gen.Kernel.Skeleton
import proofs.«141560_j6038724018288_2_alg».proof.Proof.Gen.Kernel.Launch
import proofs.«141560_j6038724018288_2_alg».proof.Proof.Gen.Kernel.Points
import proofs.«141560_j6038724018288_2_alg».proof.Proof.Gen.Kernel.Frame
import proofs.«141560_j6038724018288_2_alg».proof.Proof.Gen.KernelIdeal
import proofs.«141560_j6038724018288_2_alg».proof.Proof.Gen.KernelIdeal.Skeleton
import proofs.«141560_j6038724018288_2_alg».proof.Proof.Gen.KernelIdeal.Launch
import proofs.«141560_j6038724018288_2_alg».proof.Proof.Gen.KernelIdeal.Points
import proofs.«141560_j6038724018288_2_alg».proof.Proof.Gen.KernelIdeal.Frame
import proofs.«141560_j6038724018288_2_alg».proof.Proof.Gen.ReferenceIdeal
import proofs.«141560_j6038724018288_2_alg».proof.Proof.Gen.ReferenceIdeal.Run
import proofs.«141560_j6038724018288_2_alg».proof.Proof.Gen.ReferenceIdeal.Read
import proofs.«141560_j6038724018288_2_alg».proof.Proof.Gen.Pre_finite_inputs
import Idealize.ShloMosaic.Adequacy
import Idealize.ShloMosaic.Init
import proofs.«141560_j6038724018288_2_alg».proof.Proof.OffsetRows
import proofs.«141560_j6038724018288_2_alg».proof.Proof.KernelStarts
import proofs.«141560_j6038724018288_2_alg».proof.Proof.ReferenceStarts

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments both programs end with the same three arrays: the two flattened
    arguments, and the combined offsets as one function of the offsets argument. -/
theorem algebraic : Cert.algebraic_KernelIdeal_ReferenceIdeal := by
  intro m ρ m' ρ' _ hagree
  refine ⟨_, _, _, Cert.KernelIdeal.Starts.run (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [(hagree c).1]
  · rw [Cert.ReferenceIdeal.Read.val_main_v9_eq, Cert.ReferenceIdeal.Starts.offsets_eq, (hagree c).2.1]
  · rw [(hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
